-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x32x35 : Shape := ⟨4, ![4, 16384, 32, 35]⟩
abbrev S32x35 : Shape := ⟨2, ![32, 35]⟩
abbrev S32 : Shape := ⟨1, ![32]⟩
abbrev S32x32 : Shape := ⟨2, ![32, 32]⟩
abbrev S_ : Shape := ⟨0, ![]⟩

class Facts : Prop where
  bcast_S_S4x16384x32x35 : S_.BroadcastsInDim S4x16384x32x35 (![] : Fin 0 → Fin S4x16384x32x35.rank)
  reducesTo_S4x16384x32x35_S_d0_1_2_3 : S4x16384x32x35.ReducesTo [0, 1, 2, 3] S_
  h_S_ : 0 < S_.numel
  bcast_S_S32x35 : S_.BroadcastsInDim S32x35 (![] : Fin 0 → Fin S32x35.rank)
  reducesTo_S32x35_S_d0_1 : S32x35.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32 .f32) (main_arg5 : FVec F S32x32 .f32) (main_arg6 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S4x16384x32x35 .f32) (main_arg1 : FVec F S32x35 .f32) (main_arg2 : FVec F S32 .f32) (main_arg3 : FVec F S32x32 .f32) (main_arg4 : FVec F S32 .f32) (main_arg5 : FVec F S32x32 .f32) (main_arg6 : FVec F S32 .f32) : IVec S_ 1 :=
  let main_v0 : FVec F S4x16384x32x35 .f32 := Host.absf main_arg0
  let main_cst : FVec F S_ .f32 := constant S_ .f32 0x7F800000#32
  let main_v1 : FVec F S4x16384x32x35 .f32 := broadcastInDim S4x16384x32x35 ![] bcast_S_S4x16384x32x35 main_cst
  let main_v2 : IVec S4x16384x32x35 1 := cmpf .olt main_v0 main_v1
  let main_c : IVec S_ 1 := constantI S_ 1 1#1
  let main_v3 : IVec S_ 1 := (fun x v => Host.reduce IntOp.andi x v reducesTo_S4x16384x32x35_S_d0_1_2_3 h_S_) main_v2 main_c
  let main_v4 : FVec F S32x35 .f32 := Host.absf main_arg1
  let main_cst_0 : FVec F S_ .f32 := constant S_ .f32 0x7F800000#32
  let main_v5 : FVec F S32x35 .f32 := broadcastInDim S32x35 ![] bcast_S_S32x35 main_cst_0
  let main_v6 : IVec S32x35 1 := cmpf .olt main_v4 main_v5
  let main_c_1 : IVec S_ 1 := constantI S_ 1 1#1
  let main_v7 : IVec S_ 1 := (fun x v => Host.reduce IntOp.andi x v reducesTo_S32x35_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S4x16384x32x35 : Shape := ⟨4, ![4, 16384, 32, 35]⟩
abbrev S32x35 : Shape := ⟨2, ![32, 35]⟩
abbrev S32 : Shape := ⟨1, ![32]⟩
abbrev S32x32 : Shape := ⟨2, ![32, 32]⟩
abbrev S4x16384x32 : Shape := ⟨3, ![4, 16384, 32]⟩
abbrev S1x512x32x35 : Shape := ⟨4, ![1, 512, 32, 35]⟩
abbrev S1x512x32 : Shape := ⟨3, ![1, 512, 32]⟩
abbrev S512x32x35 : Shape := ⟨3, ![512, 32, 35]⟩
abbrev S16384x35 : Shape := ⟨2, ![16384, 35]⟩
abbrev S35x32 : Shape := ⟨2, ![35, 32]⟩
abbrev S16384x32 : Shape := ⟨2, ![16384, 32]⟩
abbrev S1x32 : Shape := ⟨2, ![1, 32]⟩
abbrev S512x32x32 : Shape := ⟨3, ![512, 32, 32]⟩
abbrev S512x32 : Shape := ⟨2, ![512, 32]⟩

abbrev nBuf : Space → Nat
  | .hbm => 8
  | .vmem => 10
  | .smem => 0
  | _ => 0

abbrev bufTy : (tb : Table) → Fin (tcTables nBuf tb) → BufTy
  | .hbm, ⟨0, _⟩ => ⟨S4x16384x32x35, .f32⟩
  | .hbm, ⟨1, _⟩ => ⟨S32x35, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S4x16384x32, .f32⟩
  | .local _ .vmem, ⟨0, _⟩ => ⟨S1x512x32x35, .f32⟩
  | .local _ .vmem, ⟨1, _⟩ => ⟨S1x512x32x35, .f32⟩
  | .local _ .vmem, ⟨2, _⟩ => ⟨S32x35, .f32⟩
  | .local _ .vmem, ⟨3, _⟩ => ⟨S32, .f32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S1x512x32, .f32⟩
  | .local _ .vmem, ⟨9, _⟩ => ⟨S1x512x32, .f32⟩
  | _, _ => ⟨S4x16384x32x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x32x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x35 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x512x32x35_S1x512x32x35_0_0_0_0 : ∀ a, (![0, 0, 0, 0] : Fin 4 → Nat) a + S1x512x32x35.size a ≤ S1x512x32x35.size a
  h_S1x512x32x35 : 0 < S1x512x32x35.numel
  shapeCasts_S1x512x32x35_S512x32x35 : S1x512x32x35.ShapeCasts S512x32x35
  shapeCasts_S512x32x35_S16384x35 : S512x32x35.ShapeCasts S16384x35
  bitsLt_bf16_f32 : FTy.bits .bf16 < FTy.bits .f32
  inb_S32x35_S32x35_0_0 : ∀ a, (![0, 0] : Fin 2 → Nat) a + S32x35.size a ≤ S32x35.size a
  h_S32x35 : 0 < S32x35.numel
  inb_S32_S32_0 : ∀ a, (![0] : Fin 1 → Nat) a + S32.size a ≤ S32.size a
  h_S32 : 0 < S32.numel
  transposes_S32x35_p1_0_S35x32 : S32x35.Transposes [1, 0] S35x32
  shapeCasts_S32_S1x32 : S32.ShapeCasts S1x32
  broadcasts_S1x32_S16384x32 : S1x32.Broadcasts S16384x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  shapeCasts_S16384x32_S512x32x32 : S16384x32.ShapeCasts S512x32x32
  reduces_S512x32x32_S512x32 : S512x32x32.Reduces [1] S512x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  dot_S16384x35_S35x32_S16384x32_1_0_0_1_n_n_wf : DotDims.WF S16384x35 S35x32 S16384x32 [1] [0] [0] [1] [] []
  dot_S16384x32_S32x32_S16384x32_1_0_0_1_n_n_wf : DotDims.WF S16384x32 S32x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32x35.size a ≤ S4x16384x32x35.size a
  hwx0_0 : ∀ i : grid0.Coords, EltTy.bits .f32 = 32 ∨ (Rect.block (s := S4x16384x32x35) S1x512x32x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x35.size a ≤ S32x35.size a
  hwx0_1 : ∀ i : grid0.Coords, EltTy.bits .f32 = 32 ∨ (Rect.block (s := S32x35) S32x35.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x32.size a ≤ S4x16384x32.size a
  hwx0_7 : ∀ i : grid0.Coords, EltTy.bits .f32 = 32 ∨ (Rect.block (s := S4x16384x32) S1x512x32.size (cc0_transform_7 i) (hinb0_7 i)).WholeWords (EltTy.packing .f32)

variable [Facts₀]

def dot_S16384x35_S35x32_S16384x32_1_0_0_1_n_n : DotDims S16384x35 S35x32 S16384x32 where
  lhsContracting := [1]
  rhsContracting := [0]
  lhsNonContracting := [0]
  rhsNonContracting := [1]
  lhsBatch := []
  rhsBatch := []
  wf := dot_S16384x35_S35x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win0_0 : Pipeline.Window sig grid0 :=
  Pipeline.Window.ofSpec (Memref.whole main_arg0) S1x512x32x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x35.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x16384x32x35 : Shape := ⟨4, ![4, 16384, 32, 35]⟩
abbrev S32x35 : Shape := ⟨2, ![32, 35]⟩
abbrev S32 : Shape := ⟨1, ![32]⟩
abbrev S32x32 : Shape := ⟨2, ![32, 32]⟩
abbrev S4x16384x32x32 : Shape := ⟨4, ![4, 16384, 32, 32]⟩
abbrev S1x1x1x32 : Shape := ⟨4, ![1, 1, 1, 32]⟩
abbrev S_ : Shape := ⟨0, ![]⟩
abbrev S4x16384x32 : Shape := ⟨3, ![4, 16384, 32]⟩

abbrev nBuf : Space → Nat
  | .hbm => 21
  | .vmem => 0
  | .smem => 0
  | _ => 0

abbrev bufTy : (tb : Table) → Fin (tcTables nBuf tb) → BufTy
  | .hbm, ⟨0, _⟩ => ⟨S4x16384x32x35, .f32⟩
  | .hbm, ⟨1, _⟩ => ⟨S32x35, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S4x16384x32x32, .f32⟩
  | .hbm, ⟨8, _⟩ => ⟨S1x1x1x32, .f32⟩
  | .hbm, ⟨9, _⟩ => ⟨S4x16384x32x32, .f32⟩
  | .hbm, ⟨10, _⟩ => ⟨S4x16384x32x32, .f32⟩
  | .hbm, ⟨11, _⟩ => ⟨S4x16384x32x32, .f32⟩
  | .hbm, ⟨12, _⟩ => ⟨S1x1x1x32, .f32⟩
  | .hbm, ⟨13, _⟩ => ⟨S4x16384x32x32, .f32⟩
  | .hbm, ⟨14, _⟩ => ⟨S4x16384x32x32, .f32⟩
  | .hbm, ⟨15, _⟩ => ⟨S4x16384x32x32, .f32⟩
  | .hbm, ⟨16, _⟩ => ⟨S1x1x1x32, .f32⟩
  | .hbm, ⟨17, _⟩ => ⟨S4x16384x32x32, .f32⟩
  | .hbm, ⟨18, _⟩ => ⟨S4x16384x32x32, .f32⟩
  | .hbm, ⟨19, _⟩ => ⟨S_, .f32⟩
  | .hbm, ⟨20, _⟩ => ⟨S4x16384x32, .f32⟩
  | _, _ => ⟨S4x16384x32x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S4x16384x32x32_0_1_2_3 : S1x1x1x32.BroadcastsInDim S4x16384x32x32 (![0, 1, 2, 3] : Fin 4 → Fin S4x16384x32x32.rank)
  reducesTo_S4x16384x32x32_S4x16384x32_d2 : S4x16384x32x32.ReducesTo [2] S4x16384x32
  h_S_ : 0 < S_.numel
  dot_S4x16384x32x35_S32x35_S4x16384x32x32_3_1_012_0_n_n_wf : DotDims.WF S4x16384x32x35 S32x35 S4x16384x32x32 [3] [1] [0, 1, 2] [0] [] []
  dot_S4x16384x32x32_S32x32_S4x16384x32x32_3_1_012_0_n_n_wf : DotDims.WF S4x16384x32x32 S32x32 S4x16384x32x32 [3] [1] [0, 1, 2] [0] [] []

variable [Facts₀]

def dot_S4x16384x32x35_S32x35_S4x16384x32x32_3_1_012_0_n_n : DotDims S4x16384x32x35 S32x35 S4x16384x32x32 where
  lhsContracting := [3]
  rhsContracting := [1]
  lhsNonContracting := [0, 1, 2]
  rhsNonContracting := [0]
  lhsBatch := []
  rhsBatch := []
  wf := dot_S4x16384x32x35_S32x35_S4x16384x32x32_3_1_012_0_n_n_wf
def dot_S4x16384x32x32_S32x32_S4x16384x32x32_3_1_012_0_n_n : DotDims S4x16384x32x32 S32x32 S4x16384x32x32 where
  lhsContracting := [3]
  rhsContracting := [1]
  lhsNonContracting := [0, 1, 2]
  rhsNonContracting := [0]
  lhsBatch := []
  rhsBatch := []
  wf := dot_S4x16384x32x32_S32x32_S4x16384x32x32_3_1_012_0_n_n_wf

class Facts : Prop extends Facts₀ where

variable [Facts]
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«163278_j9534827397769_2_alg».proof.Proof.LibPlainDot
import proofs.«163278_j9534827397769_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.PooledLayers.lean ====
/-
  Three affine layers on every row of a point's neighbourhood, then the maximum over the neighbourhood.

  A row is a vector of K numbers; an affine layer with an [H, K] weight matrix W and a bias b of H numbers sends it to
  the H numbers  (∑ f < K, row f · W (h, f)) + b h.  The network is three such layers in a row, 35 → 32 → 32 → 32, with no
  nonlinearity between them. A point has 32 neighbours, each a row of 35 numbers; the pooled value at output channel h is
  the maximum, over the 32 neighbours, of the network's channel h, the maximum being taken from minus infinity. The whole
  result is, at (batch, point, channel), the pooled value of that point's neighbourhood.

  Everything is on the extended reals, where a change of float format is the identity: a layer computed through
  half-width operands is the same layer. The second half reads ONE layer as a matrix unit computes it on a stack of
  rows — the product of the rows with the transposed weight matrix, into a zero accumulator, plus the bias repeated
  down the rows — at row r and channel h: it is the affine layer of row r.
-/
import Idealize.ShloMosaic.Lib.ValueIdx
import Idealize.ShloMosaic.Lib.ValueLayout
import Idealize.ShloMosaic.PureOps.Ideal.Laws
import proofs.«163278_j9534827397769_2_alg».proof.Proof.LibZeroAccDots

open scoped BigOperators

noncomputable section

namespace Cert.PooledLayers

open Idealize.ShloMosaic Idealize.ShloMosaic.ValueIdx

/-- One affine layer on one row: channel h of  row · Wᵀ + b. -/
def affine {K H : ℕ} (row : Fin K → EReal) (W : (⟨2, ![H, K]⟩ : Shape).Idx → EReal)
    (b : (⟨1, ![H]⟩ : Shape).Idx → EReal) (h : Fin H) : EReal :=
  (∑ f : Fin K, row f * W (ix2 h f)) + b (ix1 h)

/-- The three layers in a row, 35 → 32 → 32 → 32, on one row. -/
def threeLayers (row : Fin 35 → EReal)
    (W1 : (⟨2, ![32, 35]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal) : Fin 32 → EReal :=
  affine (affine (affine row W1 b1) W2 b2) W3 b3

/-- Channel h pooled over a neighbourhood of 32 rows: the maximum, from minus infinity, of the network's channel h. -/
def pooled (rows : Fin 32 → Fin 35 → EReal)
    (W1 : (⟨2, ![32, 35]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal) (h : Fin 32) : EReal :=
  (Finset.univ : Finset (Fin 32)).fold max (Ideal.ofBits .f32 0xFF800000#32)
    (fun k => threeLayers (rows k) W1 b1 W2 b2 W3 b3 h)

/-- The pooled value depends only on the rows, the weights and the channel. -/
theorem pooled_congr {rows rows' : Fin 32 → Fin 35 → EReal}
    {W1 W1' : (⟨2, ![32, 35]⟩ : Shape).Idx → EReal} {b1 b1' : (⟨1, ![32]⟩ : Shape).Idx → EReal}
    {W2 W2' : (⟨2, ![32, 32]⟩ : Shape).Idx → EReal} {b2 b2' : (⟨1, ![32]⟩ : Shape).Idx → EReal}
    {W3 W3' : (⟨2, ![32, 32]⟩ : Shape).Idx → EReal} {b3 b3' : (⟨1, ![32]⟩ : Shape).Idx → EReal} {h h' : Fin 32}
    (hrows : ∀ k f, rows k f = rows' k f) (e1 : W1 = W1') (e2 : b1 = b1') (e3 : W2 = W2') (e4 : b2 = b2')
    (e5 : W3 = W3') (e6 : b3 = b3') (eh : h = h') :
    pooled rows W1 b1 W2 b2 W3 b3 h = pooled rows' W1' b1' W2' b2' W3' b3' h' := by
  have hr : rows = rows' := funext fun k => funext fun f => hrows k f
  subst hr e1 e2 e3 e4 e5 e6 eh
  rfl

/-- The whole result: at (batch, point, channel), the pooled value of that point's 32 neighbour rows. -/
def result (X : (⟨4, ![4, 16384, 32, 35]⟩ : Shape).Idx → EReal)
    (W1 : (⟨2, ![32, 35]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal) :
    (⟨3, ![4, 16384, 32]⟩ : Shape).Idx → EReal :=
  fun i => pooled (fun k f => X (ix4 (i 0) (i 1) k f)) W1 b1 W2 b2 W3 b3 (i 2)

/-- ONE LAYER AS THE MATRIX UNIT COMPUTES IT, at row r and channel h: the rows times the transposed weights (the
    weights narrowed to half width first, which changes nothing here) into a zero accumulator, plus the bias viewed as
    one row and repeated down the rows, is the affine layer of row r. The rows may be of any float format. -/
theorem matrix_layer_apply {R K : ℕ} {φ : FTy} (d : DotDims ⟨2, ![R, K]⟩ ⟨2, ![K, 32]⟩ ⟨2, ![R, 32]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![R, K]⟩ φ) (W : FVec Ideal ⟨2, ![32, K]⟩ .f32) (b : FVec Ideal ⟨1, ![32]⟩ .f32)
    (hbits : FTy.bits .bf16 < FTy.bits .f32)
    (ht : (⟨2, ![32, K]⟩ : Shape).Transposes [1, 0] ⟨2, ![K, 32]⟩)
    (hc : (⟨1, ![32]⟩ : Shape).ShapeCasts ⟨2, ![1, 32]⟩)
    (hb : (⟨2, ![1, 32]⟩ : Shape).Broadcasts ⟨2, ![R, 32]⟩) (r : Fin R) (h : Fin 32) :
    addf (matmul d none x (transpose ⟨2, ![K, 32]⟩ [1, 0] (truncf .bf16 W hbits) ht)
            (constant (F := Ideal) ⟨2, ![R, 32]⟩ .f32 0x00000000#32))
         (broadcastTo ⟨2, ![R, 32]⟩ (shapeCast ⟨2, ![1, 32]⟩ b hc) hb) (ix2 r h)
      = affine (fun f => x (ix2 r f)) W b h := by
  show FloatOps.matmul d none x (transpose ⟨2, ![K, 32]⟩ [1, 0] (truncf .bf16 W hbits) ht)
          (constant (F := Ideal) ⟨2, ![R, 32]⟩ .f32 0x00000000#32) (ix2 r h)
        + broadcastTo ⟨2, ![R, 32]⟩ (shapeCast ⟨2, ![1, 32]⟩ b hc) hb (ix2 r h) = _
  rw [Cert.ZeroAccDots.rows_columns d hlb hln hlc hrb hrn hrc hr hs none x _ r h,
    broadcastTo_1b_ab_apply, shapeCast_a_1a_apply]
  unfold affine
  refine congrArg (· + b (ix1 h)) (Finset.sum_congr rfl fun f _ => ?_)
  rw [transpose_ix2_apply]
  rfl

end Cert.PooledLayers

end
-- ==== Proof.LibLeadingAxes.lean ====
/-
  Row-major shape casts that merge, or split, the two LEADING axes of an array, read at coordinates.

  An [a, b, c] array and an [m, c] array with m = a·b hold the same entries in the same row-major order: the entry at
  (n, k, f) of the first sits at position (n·b + k)·c + f, the entry at (r, f) of the second at r·c + f, and the two agree
  exactly when r = n·b + k. So casting [a, b, c] to [m, c] reads, at (r, f), the operand at (n, k, f), and casting back
  reads, at (n, k, f), the operand at (r, f). A tile of a·b rows viewed as a flat stack of rows, and a flat stack of rows
  viewed again as a stack of tiles of b rows each, are these two casts. The row number is passed with its equation, so the lemmas
  hold for any way the caller names row n·b + k.
-/
import Idealize.ShloMosaic.Lib.Pipeline.Value
import Idealize.ShloMosaic.Lib.ValueIdx

namespace Cert.LeadingAxes

open Idealize.ShloMosaic Idealize.ShloMosaic.ValueIdx

variable {α : Type}

/-- The two leading axes merged: [a, b, c] cast to [m, c] reads, at (r, f) with r = n·b + k, the operand at (n, k, f). -/
theorem merge_apply {a b c m : ℕ} (x : (⟨3, ![a, b, c]⟩ : Shape).Idx → α)
    (h : (⟨3, ![a, b, c]⟩ : Shape).ShapeCasts ⟨2, ![m, c]⟩) (n : Fin a) (k : Fin b) (f : Fin c) (r : Fin m)
    (hr : r.val = n.val * b + k.val) :
    shapeCast ⟨2, ![m, c]⟩ x h (ix2 r f) = x (ix3 n k f) :=
  shapeCast_apply x h _ _ (by
    rw [Shape.rowMajor_val_three, Shape.rowMajor_val_two]
    show (n.val * b + k.val) * c + f.val = r.val * c + f.val
    rw [hr])

/-- The leading axis split in two: [m, c] cast to [a, b, c] reads, at (n, k, f), the operand at (r, f) with r = n·b + k. -/
theorem split_apply {a b c m : ℕ} (x : (⟨2, ![m, c]⟩ : Shape).Idx → α)
    (h : (⟨2, ![m, c]⟩ : Shape).ShapeCasts ⟨3, ![a, b, c]⟩) (n : Fin a) (k : Fin b) (f : Fin c) (r : Fin m)
    (hr : r.val = n.val * b + k.val) :
    shapeCast ⟨3, ![a, b, c]⟩ x h (ix3 n k f) = x (ix2 r f) :=
  shapeCast_apply x h _ _ (by
    rw [Shape.rowMajor_val_two, Shape.rowMajor_val_three]
    show r.val * c + f.val = (n.val * b + k.val) * c + f.val
    rw [hr])

end Cert.LeadingAxes
-- ==== Proof.KernelBlock.lean ====
/-
  What the kernel's body computes on one block, index by index.

  A block is 512 points of one batch entry, each with its 32 neighbour rows of 35 numbers: a [1, 512, 32, 35] tile. The
  body views it as a flat stack of 512·32 = 16384 rows (neighbour k of point n is row n·32 + k), pushes the stack through
  the three layers — each a product with the transposed weights into a zero accumulator plus the bias repeated down the
  rows, the operands narrowed to half width on the way, which changes nothing on the extended reals —, views the
  [16384, 32] result again as [512, 32, 32] (point, neighbour, channel), takes the maximum over the neighbour axis from
  minus infinity, and stores the [512, 32] result as a [1, 512, 32] tile. So at (0, n, h) the stored tile holds the
  pooled value, over the 32 neighbour rows of point n, of channel h of the three-layer network.
-/
import proofs.«163278_j9534827397769_2_alg».proof.Proof.Gen.KernelIdeal.Skeleton
import proofs.«163278_j9534827397769_2_alg».proof.Proof.PooledLayers
import proofs.«163278_j9534827397769_2_alg».proof.Proof.LibLeadingAxes

open scoped BigOperators

noncomputable section

namespace Cert.KernelIdeal.BlockValue

open Cert.KernelIdeal Idealize.ShloMosaic Idealize.ShloMosaic.ValueIdx Cert.PooledLayers

/-- Neighbour k of point n is row n·32 + k of the flat stack of rows. -/
def row (n : Fin 512) (k : Fin 32) : Fin 16384 := ⟨n.val * 32 + k.val, by have := n.isLt; have := k.isLt; omega⟩

variable (v0 : Vec Ideal S1x512x32x35 .f32) (v4 : Vec Ideal S32x35 .f32) (v6 : Vec Ideal S32 .f32)
  (v13 : Vec Ideal S32x32 .f32) (v15 : Vec Ideal S32 .f32) (v22 : Vec Ideal S32x32 .f32) (v24 : Vec Ideal S32 .f32)

/-! ## The three stacks of hidden rows, as the body spells them -/

/-- The block as a flat stack of 16384 rows. -/
def rows : FVec Ideal S16384x35 .f32 :=
  shapeCast S16384x35 (shapeCast S512x32x35 v0 Gen.shapeCasts_S1x512x32x35_S512x32x35) Gen.shapeCasts_S512x32x35_S16384x35

/-- The stack after the first layer. -/
def hidden1 : FVec Ideal S16384x32 .f32 :=
  addf (matmul dot_S16384x35_S35x32_S16384x32_1_0_0_1_n_n none (truncf .bf16 (rows v0) Gen.bitsLt_bf16_f32)
          (transpose S35x32 [1, 0] (truncf .bf16 v4 Gen.bitsLt_bf16_f32) Gen.transposes_S32x35_p1_0_S35x32)
          (constant (F := Ideal) S16384x32 .f32 0x00000000#32))
       (broadcastTo S16384x32 (shapeCast S1x32 v6 Gen.shapeCasts_S32_S1x32) Gen.broadcasts_S1x32_S16384x32)

/-- The stack after the second layer. -/
def hidden2 : FVec Ideal S16384x32 .f32 :=
  addf (matmul dot_S16384x32_S32x32_S16384x32_1_0_0_1_n_n none (truncf .bf16 (hidden1 v0 v4 v6) Gen.bitsLt_bf16_f32)
          (transpose S32x32 [1, 0] (truncf .bf16 v13 Gen.bitsLt_bf16_f32) Gen.transposes_S32x32_p1_0_S32x32)
          (constant (F := Ideal) S16384x32 .f32 0x00000000#32))
       (broadcastTo S16384x32 (shapeCast S1x32 v15 Gen.shapeCasts_S32_S1x32) Gen.broadcasts_S1x32_S16384x32)

/-- The stack after the third layer. -/
def hidden3 : FVec Ideal S16384x32 .f32 :=
  addf (matmul dot_S16384x32_S32x32_S16384x32_1_0_0_1_n_n none (truncf .bf16 (hidden2 v0 v4 v6 v13 v15) Gen.bitsLt_bf16_f32)
          (transpose S32x32 [1, 0] (truncf .bf16 v22 Gen.bitsLt_bf16_f32) Gen.transposes_S32x32_p1_0_S32x32)
          (constant (F := Ideal) S16384x32 .f32 0x00000000#32))
       (broadcastTo S16384x32 (shapeCast S1x32 v24 Gen.shapeCasts_S32_S1x32) Gen.broadcasts_S1x32_S16384x32)

/-- The maximum over the neighbour axis of a stack viewed as (point, neighbour, channel), stored as a [1, 512, 32] tile. -/
def poolOverNeighbours (H : FVec Ideal S16384x32 .f32) : FVec Ideal S1x512x32 .f32 :=
  shapeCast S1x512x32
    (multiReduction .maximumf [1] S512x32 (shapeCast S512x32x32 H Gen.shapeCasts_S16384x32_S512x32x32) 0xFF800000#32
      Gen.reduces_S512x32x32_S512x32 (.inl rfl) rfl)
    Gen.shapeCasts_S512x32_S1x512x32

/-- The body's stored value is the third stack pooled over the neighbours: the printed operations, in order. -/
theorem payload_eq :
    Gen.k0_pay1 (F := Ideal) v0 v4 v6 v13 v15 v22 v24 = poolOverNeighbours (hidden3 v0 v4 v6 v13 v15 v22 v24) := rfl

/-! ## Each stack at a row -/

/-- Row n·32 + k of the flat stack is neighbour row k of point n of the tile. -/
theorem rows_apply (n : Fin 512) (k : Fin 32) (f : Fin 35) :
    rows v0 (ix2 (row n k) f) = v0 (ix4 (0 : Fin 1) n k f) := by
  unfold rows
  refine (Cert.LeadingAxes.merge_apply _ _ n k f (row n k) rfl).trans ?_
  exact shapeCast_1abc_abc_apply _ _ n k f

theorem hidden1_apply (n : Fin 512) (k h : Fin 32) :
    hidden1 v0 v4 v6 (ix2 (row n k) h) = affine (fun f => v0 (ix4 (0 : Fin 1) n k f)) v4 v6 h := by
  unfold hidden1
  refine (matrix_layer_apply dot_S16384x35_S35x32_S16384x32_1_0_0_1_n_n rfl rfl rfl rfl rfl rfl rfl rfl
    (truncf .bf16 (rows v0) Gen.bitsLt_bf16_f32) v4 v6 _ _ _ _ (row n k) h).trans ?_
  refine congrArg (fun rw => affine rw v4 v6 h) (funext fun f => ?_)
  exact rows_apply v0 n k f

theorem hidden2_apply (n : Fin 512) (k h : Fin 32) :
    hidden2 v0 v4 v6 v13 v15 (ix2 (row n k) h)
      = affine (affine (fun f => v0 (ix4 (0 : Fin 1) n k f)) v4 v6) v13 v15 h := by
  unfold hidden2
  refine (matrix_layer_apply dot_S16384x32_S32x32_S16384x32_1_0_0_1_n_n rfl rfl rfl rfl rfl rfl rfl rfl
    (truncf .bf16 (hidden1 v0 v4 v6) Gen.bitsLt_bf16_f32) v13 v15 _ _ _ _ (row n k) h).trans ?_
  refine congrArg (fun rw => affine rw v13 v15 h) (funext fun f => ?_)
  exact hidden1_apply v0 v4 v6 n k f

theorem hidden3_apply (n : Fin 512) (k h : Fin 32) :
    hidden3 v0 v4 v6 v13 v15 v22 v24 (ix2 (row n k) h)
      = threeLayers (fun f => v0 (ix4 (0 : Fin 1) n k f)) v4 v6 v13 v15 v22 v24 h := by
  unfold hidden3
  refine (matrix_layer_apply dot_S16384x32_S32x32_S16384x32_1_0_0_1_n_n rfl rfl rfl rfl rfl rfl rfl rfl
    (truncf .bf16 (hidden2 v0 v4 v6 v13 v15) Gen.bitsLt_bf16_f32) v22 v24 _ _ _ _ (row n k) h).trans ?_
  refine congrArg (fun rw => affine rw v22 v24 h) (funext fun f => ?_)
  exact hidden2_apply v0 v4 v6 v13 v15 n k f

/-! ## The maximum over the neighbours -/

/-- Inserting neighbour k into (n, h) on the dropped axis gives (n, k, h). -/
theorem lift_eq (hred : S512x32x32.Reduces [1] S512x32) (n : Fin 512) (h k : Fin 32) :
    hred.lift (ix2 n h) k = ix3 n k h :=
  funext fun a => Fin.ext (by match a with | ⟨0, _⟩ => rfl | ⟨1, _⟩ => rfl | ⟨2, _⟩ => rfl)

/-- The pooled tile at (u, n, h): the maximum, from minus infinity, over neighbour k of the stack at row n·32 + k. -/
theorem poolOverNeighbours_apply (H : FVec Ideal S16384x32 .f32) (u : Fin 1) (n : Fin 512) (h : Fin 32) :
    poolOverNeighbours H (ix3 u n h)
      = (Finset.univ : Finset (Fin 32)).fold max (Ideal.ofBits .f32 0xFF800000#32) (fun k => H (ix2 (row n k) h)) := by
  unfold poolOverNeighbours
  refine (shapeCast_ab_1ab_apply _ _ u n h).trans ?_
  refine (Ideal.multiReduction_maximumf_single _ _ _ _ _ (ix2 n h)).trans ?_
  show (Finset.univ : Finset (Fin 32)).fold max (Ideal.ofBits .f32 0xFF800000#32)
      (fun k : Fin 32 => shapeCast S512x32x32 H Gen.shapeCasts_S16384x32_S512x32x32
        (Gen.reduces_S512x32x32_S512x32.lift (ix2 n h) k))
    = (Finset.univ : Finset (Fin 32)).fold max (Ideal.ofBits .f32 0xFF800000#32) (fun k : Fin 32 => H (ix2 (row n k) h))
  refine congrArg (fun g : Fin 32 → EReal => Finset.fold max (Ideal.ofBits .f32 0xFF800000#32) g (Finset.univ : Finset (Fin 32)))
    (funext fun (k : Fin 32) => ?_)
  rw [lift_eq]
  exact Cert.LeadingAxes.split_apply _ _ n k h (row n k) rfl

/-- THE BODY'S STORED TILE at (u, n, h) is the pooled value of point n's neighbour rows at channel h. -/
theorem payload_apply (u : Fin 1) (n : Fin 512) (h : Fin 32) :
    Gen.k0_pay1 (F := Ideal) v0 v4 v6 v13 v15 v22 v24 (ix3 u n h)
      = pooled (fun k f => v0 (ix4 (0 : Fin 1) n k f)) v4 v6 v13 v15 v22 v24 h := by
  rw [payload_eq, poolOverNeighbours_apply]
  unfold pooled
  refine congrArg (fun g : Fin 32 → EReal => Finset.fold max (Ideal.ofBits .f32 0xFF800000#32) g (Finset.univ : Finset (Fin 32)))
    (funext fun (k : Fin 32) => ?_)
  exact hidden3_apply v0 v4 v6 v13 v15 v22 v24 n k h

end Cert.KernelIdeal.BlockValue

end
-- ==== Proof.KernelArray.lean ====
/-
  From the blocks to the whole array: after the kernel's run the result array is the pooled three-layer network of the
  argument arrays.

  The grid has 4 × 32 points; point (b, j) works on points 512·j … 512·j + 511 of batch entry b. Its input block is the
  [1, 512, 32, 35] tile of X at block index (b, j, 0, 0), the six weight and bias windows are their whole arrays at every
  point, and its output block is the [1, 512, 32] tile of the result at block index (b, j, 0). An entry of a block sits in
  its array at block index × block size + the coordinate inside the block, on every axis. So the input tile's neighbour
  row k of point n is the row X (b, 512·j + n, k, ·) of the array, the output tile's entry (0, n, h) is the result's entry
  (b, 512·j + n, h), and what the body stores there — the pooled value of that tile's rows — is the pooled value of the
  array's rows at that very entry: every point writes back the restriction, to its block, of ONE function of the argument
  arrays. The 128 blocks cover the result array (entry (b, p, h) is in the block of point (b, p / 512)), so the array after
  the run IS that function.
-/
import proofs.«163278_j9534827397769_2_alg».proof.Proof.Gen.KernelIdeal.Value
import proofs.«163278_j9534827397769_2_alg».proof.Proof.KernelBlock

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.PooledLayers
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The pooled three-layer network of the argument arrays as core `c` finds them when the region is entered. -/
abbrev wholeResult (c : Dev nD) : S4x16384x32.Idx → EReal :=
  result (V m c main_arg0) (V m c main_arg1) (V m c main_arg2) (V m c main_arg3) (V m c main_arg4) (V m c main_arg5)
    (V m c main_arg6)

/-! ## The block index maps over the grid -/

/-- Decided over the 128 grid points: the input tile moves with the output tile on the batch and point axes and sits at
    block 0 on the neighbour and feature axes; every weight and bias window sits at block 0; the output tile sits at
    block 0 on the channel axis, and its batch and point block indices stay in range. -/
theorem block_indices : ∀ t : Fin cfg0.N,
    win0_0.index t (0 : Fin 4) = win0_7.index t (0 : Fin 3)
    ∧ win0_0.index t (1 : Fin 4) = win0_7.index t (1 : Fin 3)
    ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (2 : Fin 3) = 0
    ∧ win0_7.index t (0 : Fin 3) ≤ 3 ∧ win0_7.index t (1 : Fin 3) ≤ 31 :=
  (by decide +kernel : ∀ t : Fin grid0.N, _)

/-- Every (batch, group of 512 points) is SOME grid point's output block. -/
theorem every_block : ∀ (q0 : Fin 4) (q1 : Fin 32), ∃ t : Fin cfg0.N, win0_7.index t = ![q0.val, q1.val, 0] :=
  (by decide +kernel : ∀ (q0 : Fin 4) (q1 : Fin 32), ∃ t : Fin grid0.N, win0_7.index t = ![q0.val, q1.val, 0])

/-! ## The input blocks, read where the output block's entry sits -/

/-- A weight or bias window is its whole array at every point. -/
theorem weights1_block (c : Dev nD) (t : Fin cfg0.N) : (iblk m c 1 t : S32x35.Idx → Elt Ideal .f32) = V m c main_arg1 := by
  obtain ⟨-, -, -, -, e0, e1, -⟩ := block_indices t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 32 + 1 * (y 0).val = (y 0).val; omega
  | ⟨1, _⟩ => show win0_1.index t (1 : Fin 2) * 35 + 1 * (y 1).val = (y 1).val; omega

theorem bias1_block (c : Dev nD) (t : Fin cfg0.N) : (iblk m c 2 t : S32.Idx → Elt Ideal .f32) = V m c main_arg2 := by
  obtain ⟨-, -, -, -, -, -, e0, -⟩ := block_indices t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 32 + 1 * (y 0).val = (y 0).val; omega

theorem weights2_block (c : Dev nD) (t : Fin cfg0.N) : (iblk m c 3 t : S32x32.Idx → Elt Ideal .f32) = V m c main_arg3 := by
  obtain ⟨-, -, -, -, -, -, -, e0, e1, -⟩ := block_indices t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega

theorem bias2_block (c : Dev nD) (t : Fin cfg0.N) : (iblk m c 4 t : S32.Idx → Elt Ideal .f32) = V m c main_arg4 := by
  obtain ⟨-, -, -, -, -, -, -, -, -, e0, -⟩ := block_indices t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 32 + 1 * (y 0).val = (y 0).val; omega

theorem weights3_block (c : Dev nD) (t : Fin cfg0.N) : (iblk m c 5 t : S32x32.Idx → Elt Ideal .f32) = V m c main_arg5 := by
  obtain ⟨-, -, -, -, -, -, -, -, -, -, e0, e1, -⟩ := block_indices t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 32 + 1 * (y 0).val = (y 0).val; omega
  | ⟨1, _⟩ => show win0_5.index t (1 : Fin 2) * 32 + 1 * (y 1).val = (y 1).val; omega

theorem bias3_block (c : Dev nD) (t : Fin cfg0.N) : (iblk m c 6 t : S32.Idx → Elt Ideal .f32) = V m c main_arg6 := by
  obtain ⟨-, -, -, -, -, -, -, -, -, -, -, -, e0, -⟩ := block_indices t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 32 + 1 * (y 0).val = (y 0).val; omega

/-- Neighbour row k of point n of the input tile is the array's row at the batch entry and point where the output tile's
    entry (u, n, h) sits. -/
theorem rows_block (c : Dev nD) (t : Fin cfg0.N) (u : Fin 1) (n : Fin 512) (h k : Fin 32) (f : Fin 35) :
    iblk m c 0 t (ix4 (0 : Fin 1) n k f)
      = V m c main_arg0 (ix4 (((cfg0.win 7).blk t).view.emb (ix3 u n h) 0) (((cfg0.win 7).blk t).view.emb (ix3 u n h) 1) k f) := by
  obtain ⟨e0, e1, e2, e3, -⟩ := block_indices t
  show V m c main_arg0 (((cfg0.win 0).blk t).view.emb (ix4 (0 : Fin 1) n k f)) = _
  refine congrArg (V m c main_arg0) (funext fun a => Fin.ext ?_)
  have hu : u.val = 0 := by omega
  match a with
  | ⟨0, _⟩ => show win0_0.index t (0 : Fin 4) * 1 + 1 * 0 = win0_7.index t (0 : Fin 3) * 1 + 1 * u.val; omega
  | ⟨1, _⟩ => show win0_0.index t (1 : Fin 4) * 512 + 1 * n.val = win0_7.index t (1 : Fin 3) * 512 + 1 * n.val; omega
  | ⟨2, _⟩ => show win0_0.index t (2 : Fin 4) * 32 + 1 * k.val = k.val; omega
  | ⟨3, _⟩ => show win0_0.index t (3 : Fin 4) * 35 + 1 * f.val = f.val; omega

/-- The output tile's channel coordinate is the array's. -/
theorem channel_block (t : Fin cfg0.N) (u : Fin 1) (n : Fin 512) (h : Fin 32) :
    h = ((cfg0.win 7).blk t).view.emb (ix3 u n h) 2 := by
  obtain ⟨-, -, -, -, -, -, -, -, -, -, -, -, -, e2, -⟩ := block_indices t
  refine Fin.ext ?_
  show h.val = win0_7.index t (2 : Fin 3) * 32 + 1 * h.val
  omega

/-! ## What a point writes back, the cover, the array -/

/-- WHAT POINT `t` WRITES BACK is block `t` of the pooled network of the argument arrays. -/
theorem flushed_eq (c : Dev nD) (t : Fin cfg0.N) :
    (dats m 0 c).flushed 7 t = ((cfg0.win 7).blk t).view.read (Elt Ideal) (wholeResult m c) := by
  rw [Value.flushed7]
  unfold out0_7
  rw [View.canon_unit_zero zero3]
  simp only [View.ld_unit_zero (S := S1x512x32x35) zero4, View.ld_unit_zero (S := S32x35) zero2,
    View.ld_unit_zero (S := S32) zero1, View.ld_unit_zero (S := S32x32) zero2]
  funext j
  obtain ⟨u, n, h, rfl⟩ : ∃ (u : Fin 1) (n : Fin 512) (h : Fin 32), j = ix3 u n h := ⟨j 0, j 1, j 2, eq_ix3 j⟩
  show k0_pay1 (F := Ideal) (iblk m c 0 t) (iblk m c 1 t) (iblk m c 2 t) (iblk m c 3 t) (iblk m c 4 t) (iblk m c 5 t)
      (iblk m c 6 t) (ix3 u n h) = wholeResult m c (((cfg0.win 7).blk t).view.emb (ix3 u n h))
  rw [BlockValue.payload_apply]
  exact pooled_congr (fun k f => rows_block m c t u n h k f) (weights1_block m c t) (bias1_block m c t)
    (weights2_block m c t) (bias2_block m c t) (weights3_block m c t) (bias3_block m c t) (channel_block t u n h)

/-- An index of the result array is in point `t`'s block iff each coordinate is in the block's range on its axis. -/
theorem mem_block (t : Fin cfg0.N) (i : S4x16384x32.Idx) :
    i ∈ ((cfg0.win 7).blk t).view.set ↔ ∀ a : Fin 3, win0_7.index t a * S1x512x32.size a ≤ (i a).val
      ∧ (i a).val < win0_7.index t a * S1x512x32.size a + S1x512x32.size a := by
  show i ∈ ((View.whole main_v0).slice (win0_7.rect t)).set ↔ _
  rw [View.set_slice_whole, Rect.mem_set_unit]
  exact Iff.rfl

/-- THE COVER: entry (b, p, h) of the result is in the block of the grid point for batch entry b and group p / 512. -/
theorem cover (i : S4x16384x32.Idx) :
    ∃ t : Fin cfg0.N, (cfg0.win 7).flush t = true ∧ i ∈ ((cfg0.win 7).blk t).view.set := by
  have hi0 : (i 0).val < 4 := (i 0).isLt
  have hi1 : (i 1).val < 16384 := (i 1).isLt
  have hi2 : (i 2).val < 32 := (i 2).isLt
  obtain ⟨t, ht⟩ := every_block ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_block]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 32 ≤ (i 2).val ∧ (i 2).val < win0_7.index t (2 : Fin 3) * 32 + 32; omega

/-- THE RESULT ARRAY after the run is the pooled network of the argument arrays. -/
theorem final (c : Dev nD) : (dats m 0 c).arrAt 7 cfg0.N = wholeResult m c :=
  (dats m 0 c).arrAt_eq_of_cover 7 (wholeResult m c) (fun t _ => flushed_eq m c t) cover

/-- The kernel's run re-posted: the result array at the pooled network of the arguments, the arguments unchanged. -/
theorem run : θ_run defs (onTc (τ := τ) (main (F := Ideal))) ⟨m, fun _ => 0, ρ⟩ fun r => ∀ c : Dev nD,
      r.2.mem ((c : Thread nD τ).loc main_v0) = wholeResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.ReferenceValue.lean ====
/-
  The reference computes the pooled three-layer network, index by index.

  Its program is three times "contract the last axis of a [4, 16384, 32, ·] array against the second axis of a weight
  matrix, then add the bias repeated over every leading position", followed by a maximum over the neighbour axis (axis 2)
  from minus infinity. At (batch, point, neighbour, channel) a contraction reads the array along its last axis at that
  same (batch, point, neighbour) and the weight matrix along row `channel`; the repeated bias reads its entry
  `channel`. So each stage at (b, n, k, h) is the affine layer of the row the previous stage holds at (b, n, k, ·), and
  the three stages together are the three-layer network of the input row X (b, n, k, ·). The final maximum at
  (b, n, h) folds, over the neighbour k, the entries at (b, n, k, h): the pooled value.
-/
import proofs.«163278_j9534827397769_2_alg».proof.Proof.Gen.ReferenceIdeal.Read
import proofs.«163278_j9534827397769_2_alg».proof.Proof.PooledLayers

open scoped BigOperators

noncomputable section

namespace Cert.ReferenceIdeal.RefValue

open Cert.ReferenceIdeal Cert.ReferenceIdeal.Gen Cert.ReferenceIdeal.Read
open Idealize.ShloMosaic Idealize.ShloMosaic.ValueIdx Cert.PooledLayers

/-! ## Where each operation reads its operands, by coordinates -/

theorem lidx0 (b : Fin 4) (n : Fin 16384) (k h : Fin 32) (f : Fin 35) :
    lidx_main_v0 (ix4 b n k h) f = ix4 b n k f :=
  funext fun a => Fin.ext (by match a with | ⟨0, _⟩ => rfl | ⟨1, _⟩ => rfl | ⟨2, _⟩ => rfl | ⟨3, _⟩ => rfl)

theorem ridx0 (b : Fin 4) (n : Fin 16384) (k h : Fin 32) (f : Fin 35) :
    ridx_main_v0 (ix4 b n k h) f = ix2 h f :=
  funext fun a => Fin.ext (by match a with | ⟨0, _⟩ => rfl | ⟨1, _⟩ => rfl)

theorem lidx4 (b : Fin 4) (n : Fin 16384) (k h : Fin 32) (f : Fin 32) :
    lidx_main_v4 (ix4 b n k h) f = ix4 b n k f :=
  funext fun a => Fin.ext (by match a with | ⟨0, _⟩ => rfl | ⟨1, _⟩ => rfl | ⟨2, _⟩ => rfl | ⟨3, _⟩ => rfl)

theorem ridx4 (b : Fin 4) (n : Fin 16384) (k h : Fin 32) (f : Fin 32) :
    ridx_main_v4 (ix4 b n k h) f = ix2 h f :=
  funext fun a => Fin.ext (by match a with | ⟨0, _⟩ => rfl | ⟨1, _⟩ => rfl)

theorem lidx8 (b : Fin 4) (n : Fin 16384) (k h : Fin 32) (f : Fin 32) :
    lidx_main_v8 (ix4 b n k h) f = ix4 b n k f :=
  funext fun a => Fin.ext (by match a with | ⟨0, _⟩ => rfl | ⟨1, _⟩ => rfl | ⟨2, _⟩ => rfl | ⟨3, _⟩ => rfl)

theorem ridx8 (b : Fin 4) (n : Fin 16384) (k h : Fin 32) (f : Fin 32) :
    ridx_main_v8 (ix4 b n k h) f = ix2 h f :=
  funext fun a => Fin.ext (by match a with | ⟨0, _⟩ => rfl | ⟨1, _⟩ => rfl)

/-- The bias repeated over every leading position reads, at (b, n, k, h), its entry h (first layer). -/
theorem bias1 (b : Fin 4) (n : Fin 16384) (k h : Fin 32) : idx_main_v1 (idx_main_v2 (ix4 b n k h)) = ix1 h :=
  funext fun a => Fin.ext (by match a with | ⟨0, _⟩ => rfl)

theorem bias2 (b : Fin 4) (n : Fin 16384) (k h : Fin 32) : idx_main_v5 (idx_main_v6 (ix4 b n k h)) = ix1 h :=
  funext fun a => Fin.ext (by match a with | ⟨0, _⟩ => rfl)

theorem bias3 (b : Fin 4) (n : Fin 16384) (k h : Fin 32) : idx_main_v9 (idx_main_v10 (ix4 b n k h)) = ix1 h :=
  funext fun a => Fin.ext (by match a with | ⟨0, _⟩ => rfl)

/-! ## The three stages -/

variable (x0 : (⟨S4x16384x32x35, .f32⟩ : BufTy).Contents (Elt Ideal)) (x1 : (⟨S32x35, .f32⟩ : BufTy).Contents (Elt Ideal))
  (x2 : (⟨S32, .f32⟩ : BufTy).Contents (Elt Ideal)) (x3 : (⟨S32x32, .f32⟩ : BufTy).Contents (Elt Ideal))
  (x4 : (⟨S32, .f32⟩ : BufTy).Contents (Elt Ideal)) (x5 : (⟨S32x32, .f32⟩ : BufTy).Contents (Elt Ideal))
  (x6 : (⟨S32, .f32⟩ : BufTy).Contents (Elt Ideal))

/-- After the first contraction and bias, the entry at (b, n, k, h) is the first layer of the input row (b, n, k, ·). -/
theorem stage1 (b : Fin 4) (n : Fin 16384) (k h : Fin 32) :
    val_main_v3 (F := Ideal) x0 x1 x2 (ix4 b n k h) = affine (fun f => x0 (ix4 b n k f)) x1 x2 h := by
  rw [val_main_v3_apply, val_main_v0_apply, val_main_v2_apply, val_main_v1_apply]
  simp only [lidx0, ridx0, bias1]
  rfl

/-- After the second, the second layer of the first layer's row. -/
theorem stage2 (b : Fin 4) (n : Fin 16384) (k h : Fin 32) :
    val_main_v7 (F := Ideal) x0 x1 x2 x3 x4 (ix4 b n k h)
      = affine (affine (fun f => x0 (ix4 b n k f)) x1 x2) x3 x4 h := by
  rw [val_main_v7_apply, val_main_v4_apply, val_main_v6_apply, val_main_v5_apply]
  simp only [lidx4, ridx4, bias2, stage1]
  rfl

/-- After the third, the whole network of the input row. -/
theorem stage3 (b : Fin 4) (n : Fin 16384) (k h : Fin 32) :
    val_main_v11 (F := Ideal) x0 x1 x2 x3 x4 x5 x6 (ix4 b n k h)
      = threeLayers (fun f => x0 (ix4 b n k f)) x1 x2 x3 x4 x5 x6 h := by
  rw [val_main_v11_apply, val_main_v8_apply, val_main_v10_apply, val_main_v9_apply]
  simp only [lidx8, ridx8, bias3, stage2]
  rfl

/-! ## The maximum over the neighbour axis -/

/-- The neighbour axis (axis 2) of the [4, 16384, 32, 32] array is the one the final reduction drops. -/
theorem dropsNeighbours : S4x16384x32x32.Reduces [2] S4x16384x32 := by decide

/-- Inserting neighbour k into (b, n, h) on the dropped axis gives (b, n, k, h). -/
theorem lift_eq (b : Fin 4) (n : Fin 16384) (h k : Fin 32) :
    dropsNeighbours.lift (ix3 b n h) k = ix4 b n k h :=
  funext fun a => Fin.ext (by match a with | ⟨0, _⟩ => rfl | ⟨1, _⟩ => rfl | ⟨2, _⟩ => rfl | ⟨3, _⟩ => rfl)

/-- THE REFERENCE'S RESULT is the pooled three-layer network of the argument arrays. -/
theorem reference_eq :
    val_main_v12 (F := Ideal) x0 x1 x2 x3 x4 x5 x6 = result x0 x1 x2 x3 x4 x5 x6 := by
  funext i
  obtain ⟨b, n, h, rfl⟩ : ∃ (b : Fin 4) (n : Fin 16384) (h : Fin 32), i = ix3 b n h := ⟨i 0, i 1, i 2, eq_ix3 i⟩
  unfold val_main_v12
  rw [Host.reduce_eq_fold_single FloatOps.maximumf _ _ reducesTo_S4x16384x32x32_S4x16384x32_d2 dropsNeighbours h_S_
    (ix3 b n h)]
  show (Finset.univ : Finset (Fin 32)).fold max (Ideal.ofBits .f32 0xFF800000#32)
      (fun k : Fin 32 => val_main_v11 (F := Ideal) x0 x1 x2 x3 x4 x5 x6 (dropsNeighbours.lift (ix3 b n h) k))
    = (Finset.univ : Finset (Fin 32)).fold max (Ideal.ofBits .f32 0xFF800000#32)
      (fun k : Fin 32 => threeLayers (fun f => x0 (ix4 b n k f)) x1 x2 x3 x4 x5 x6 h)
  refine congrArg (fun g : Fin 32 → EReal => Finset.fold max (Ideal.ofBits .f32 0xFF800000#32) g (Finset.univ : Finset (Fin 32)))
    (funext fun (k : Fin 32) => ?_)
  rw [lift_eq]
  exact stage3 x0 x1 x2 x3 x4 x5 x6 b n k h

end Cert.ReferenceIdeal.RefValue

end
-- ==== Proof.lean ====
/-
  A point-cloud layer: for every point, its 32 neighbour rows of 35 features go through three affine layers
  (35 → 32 → 32 → 32, no nonlinearity between them), and the result is the maximum over the neighbours, channel by
  channel. The kernel does this tile by tile — 512 points of one batch entry per grid point, the rows flattened into one
  stack, each layer a product with the transposed weights on the matrix unit with half-width operands — and the reference
  does it with three contractions of the whole [4, 16384, 32, ·] array and one maximum over the neighbour axis.

  On the extended reals both are the same function of the argument arrays, entry by entry:
      out (b, p, h) = max over k < 32, from minus infinity, of  L₃ (L₂ (L₁ (X (b, p, k, ·)))) h,
      Lᵢ row h = (∑ f, row f · Wᵢ (h, f)) + bᵢ h.
  A change of float format is the identity there, a product into a zero accumulator is the plain sum of products, and a
  maximum folded over the neighbours in any order is the same maximum; no law that needs finite values is used, so the
  precondition is never opened. The kernel's side is read off its blocks (what each grid point writes back is the
  restriction of that one function to its block, and the blocks cover the result); the reference's side is read off its
  run one operation at a time. The idealization rewrote nothing, so that conjunct is trivial.
-/
import proofs.«163278_j9534827397769_2_alg».proof.Defs
import proofs.«163278_j9534827397769_2_alg».proof.Proof.Gen.Kernel
import proofs.«163278_j9534827397769_2_alg».proof.Proof.Gen.Kernel.Skeleton
import proofs.«163278_j9534827397769_2_alg».proof.Proof.Gen.Kernel.Launch
import proofs.«163278_j9534827397769_2_alg».proof.Proof.Gen.Kernel.Points
import proofs.«163278_j9534827397769_2_alg».proof.Proof.Gen.Kernel.Frame
import proofs.«163278_j9534827397769_2_alg».proof.Proof.Gen.KernelIdeal
import proofs.«163278_j9534827397769_2_alg».proof.Proof.Gen.KernelIdeal.Skeleton
import proofs.«163278_j9534827397769_2_alg».proof.Proof.Gen.KernelIdeal.Launch
import proofs.«163278_j9534827397769_2_alg».proof.Proof.Gen.KernelIdeal.Points
import proofs.«163278_j9534827397769_2_alg».proof.Proof.Gen.KernelIdeal.Frame
import proofs.«163278_j9534827397769_2_alg».proof.Proof.Gen.ReferenceIdeal
import proofs.«163278_j9534827397769_2_alg».proof.Proof.Gen.Pre_finite_inputs
import proofs.«163278_j9534827397769_2_alg».proof.Proof.Gen.KernelIdeal.Value
import proofs.«163278_j9534827397769_2_alg».proof.Proof.Gen.ReferenceIdeal.Run
import proofs.«163278_j9534827397769_2_alg».proof.Proof.Gen.ReferenceIdeal.Read
import proofs.«163278_j9534827397769_2_alg».proof.Proof.KernelArray
import proofs.«163278_j9534827397769_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array and the reference's result are both the
    pooled three-layer network of those arguments. -/
theorem algebraic : Cert.algebraic_KernelIdeal_ReferenceIdeal := by
  intro m ρ m' ρ' _ hagree
  refine ⟨fun c => Cert.KernelIdeal.ArrayValue.wholeResult m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
